-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S64x4096 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S64 : Shape := ⟨1, ![64]⟩
abbrev S1x64 : Shape := ⟨2, ![1, 64]⟩
abbrev S64x8192 : Shape := ⟨2, ![64, 8192]⟩
abbrev S512x4096 : Shape := ⟨2, ![512, 4096]⟩
abbrev S64x512 : Shape := ⟨2, ![64, 512]⟩
abbrev S64x1 : Shape := ⟨2, ![64, 1]⟩
abbrev S8192x64 : Shape := ⟨2, ![8192, 64]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S64x8192, .f32⟩
  | .hbm, ⟨5, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S64x512, .f32⟩
  | .local _ .vmem, ⟨5, _⟩ => ⟨S64x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x512 : S64x1.Broadcasts S64x512
  inb_S64x512_S64x512_0_0 : ∀ a, (![0, 0] : Fin 2 → Nat) a + S64x512.size a ≤ S64x512.size a
  h_S64x512 : 0 < S64x512.numel
  transposes_S64x8192_S8192x64_1_0 : S64x8192.Transposes [1, 0] S8192x64
  dot_S64x4096_S512x4096_S64x512_1_1_0_0_n_n_wf : DotDims.WF S64x4096 S512x4096 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x8192.size a
  hwx0_3 : ∀ i : grid0.Coords, EltTy.bits .f32 = 32 ∨ (Rect.block (s := S64x8192) S64x512.size (cc0_transform_3 i) (hinb0_3 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S8192x64 : Shape := ⟨2, ![8192, 64]⟩
abbrev S_ : Shape := ⟨0, ![]⟩
abbrev S1x64 : Shape := ⟨2, ![1, 64]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S8192x64, .f32⟩
  | .hbm, ⟨4, _⟩ => ⟨S_, .f32⟩
  | .hbm, ⟨5, _⟩ => ⟨S8192x64, .f32⟩
  | .hbm, ⟨6, _⟩ => ⟨S8192x64, .f32⟩
  | .hbm, ⟨7, _⟩ => ⟨S1x64, .f32⟩
  | .hbm, ⟨8, _⟩ => ⟨S8192x64, .f32⟩
  | .hbm, ⟨9, _⟩ => ⟨S8192x64, .f32⟩
  | .hbm, ⟨10, _⟩ => ⟨S_, .f32⟩
  | .hbm, ⟨11, _⟩ => ⟨S8192x64, .f32⟩
  | .hbm, ⟨12, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S8192x64 : S_.BroadcastsInDim S8192x64 (![] : Fin 0 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x4096_S64x4096_S8192x64_1_1_0_0_n_n_wf : DotDims.WF S8192x4096 S64x4096 S8192x64 [1] [1] [0] [0] [] []

variable [Facts₀]

def dot_S8192x4096_S64x4096_S8192x64_1_1_0_0_n_n : DotDims S8192x4096 S64x4096 S8192x64 where
  lhsContracting := [1]
  rhsContracting := [1]
  lhsNonContracting := [0]
  rhsNonContracting := [0]
  lhsBatch := []
  rhsBatch := []
  wf := dot_S8192x4096_S64x4096_S8192x64_1_1_0_0_n_n_wf

class Facts : Prop extends Facts₀ where

variable [Facts]
-- ==== Proof.Spec.lean ====
/-
  The gated router scores, as ONE function of the three argument arrays.

  For a token `t` (a row of `x : [8192, 4096]`) and a prototype `n` (a row of `p : [64, 4096]`) the score is

      score x p g n t = max ((Σ_k p[n,k] · x[t,k]) · 2⁻⁶ - g[n]) 0

  on the extended reals: the inner product of the two rows, scaled by `1/√4096 = 1/64`, lowered by the prototype's
  gate and clipped below at zero. The table of all scores is laid out twice here: prototype-major, `[64, 8192]`
  (`scoresT`), and token-major, `[8192, 64]` (`scores`), the one the transpose of the other.

  The one algebraic fact that is needed beyond that is `scaled_eq_div`: the product of the inner product with the
  binary word of `2⁻⁶` is the quotient of the inner product, its factors commuted, by the binary word of `64`.
  Both words are exact powers of two, a quotient by a nonzero real is the product with its reciprocal on EVERY
  extended real (the infinities included), and commuting the two factors of each term needs no finiteness either:
  so the equation holds for all inputs.
-/
import Idealize.ShloMosaic.PureOps.Ideal
import Idealize.ShloMosaic.PureOps.Ideal.Laws
import Idealize.ShloMosaic.Lib.ValueIdx

noncomputable section

namespace Cert.Router

open Idealize.ShloMosaic Idealize.ShloMosaic.ValueIdx

/-! ## The two float literals -/

/-- The word `0x3C800000` (sign 0, exponent field 121, fraction 0) is `2^(121-127) = 1/64`. -/
theorem scale_word : Ideal.ofBits .f32 0x3C800000#32 = ((1 / 64 : ℝ) : EReal) := by
  simp [Ideal.ofBits, Ideal.ieee, -EReal.coe_mul]; norm_num

/-- The word `0x42800000` (sign 0, exponent field 133, fraction 0) is `2^(133-127) = 64`. -/
theorem divisor_word : Ideal.ofBits .f32 0x42800000#32 = ((64 : ℝ) : EReal) := by
  simp [Ideal.ofBits, Ideal.ieee, -EReal.coe_mul]; norm_num

/-! ## The scores -/

/-- The inner product of row `n` of `p` with row `t` of `x`, the prototype's entry written first in each term. -/
def rowDot (p : (⟨2, ![64, 4096]⟩ : Shape).Idx → EReal) (x : (⟨2, ![8192, 4096]⟩ : Shape).Idx → EReal)
    (n : Fin 64) (t : Fin 8192) : EReal :=
  ∑ k : Fin 4096, p (ix2 n k) * x (ix2 t k)

/-- The score of prototype `n` for token `t`: the scaled inner product, less the gate, clipped at zero. -/
def score (x : (⟨2, ![8192, 4096]⟩ : Shape).Idx → EReal) (p : (⟨2, ![64, 4096]⟩ : Shape).Idx → EReal)
    (g : (⟨1, ![64]⟩ : Shape).Idx → EReal) (n : Fin 64) (t : Fin 8192) : EReal :=
  max (rowDot p x n t * Ideal.ofBits .f32 0x3C800000#32 - g (ix1 n)) (Ideal.ofBits .f32 0x00000000#32)

/-- All scores, prototype-major: entry `(n, t)`. -/
def scoresT (x : (⟨2, ![8192, 4096]⟩ : Shape).Idx → EReal) (p : (⟨2, ![64, 4096]⟩ : Shape).Idx → EReal)
    (g : (⟨1, ![64]⟩ : Shape).Idx → EReal) : (⟨2, ![64, 8192]⟩ : Shape).Idx → EReal :=
  fun j => score x p g (j 0) (j 1)

/-- All scores, token-major: entry `(t, n)`. -/
def scores (x : (⟨2, ![8192, 4096]⟩ : Shape).Idx → EReal) (p : (⟨2, ![64, 4096]⟩ : Shape).Idx → EReal)
    (g : (⟨1, ![64]⟩ : Shape).Idx → EReal) : (⟨2, ![8192, 64]⟩ : Shape).Idx → EReal :=
  fun i => score x p g (i 1) (i 0)

theorem scoresT_apply (x : (⟨2, ![8192, 4096]⟩ : Shape).Idx → EReal) (p : (⟨2, ![64, 4096]⟩ : Shape).Idx → EReal)
    (g : (⟨1, ![64]⟩ : Shape).Idx → EReal) (n : Fin 64) (t : Fin 8192) :
    scoresT x p g (ix2 n t) = score x p g n t := rfl

theorem scores_apply (x : (⟨2, ![8192, 4096]⟩ : Shape).Idx → EReal) (p : (⟨2, ![64, 4096]⟩ : Shape).Idx → EReal)
    (g : (⟨1, ![64]⟩ : Shape).Idx → EReal) (t : Fin 8192) (n : Fin 64) :
    scores x p g (ix2 t n) = score x p g n t := rfl

/-! ## Scaling by `2⁻⁶` is dividing by `64` -/

/-- The inner product times the word of `1/64` is the inner product, each term's factors commuted, divided by the
    word of `64` — on all extended reals. -/
theorem scaled_eq_div (p : (⟨2, ![64, 4096]⟩ : Shape).Idx → EReal) (x : (⟨2, ![8192, 4096]⟩ : Shape).Idx → EReal)
    (n : Fin 64) (t : Fin 8192) :
    rowDot p x n t * Ideal.ofBits .f32 0x3C800000#32
      = Ideal.div (∑ k : Fin 4096, x (ix2 t k) * p (ix2 n k)) (Ideal.ofBits .f32 0x42800000#32) := by
  rw [scale_word, divisor_word, Ideal.div_coe (by norm_num : (64 : ℝ) ≠ 0)]
  unfold rowDot
  exact congrArg (· * ((1 / 64 : ℝ) : EReal)) (Finset.sum_congr rfl fun k _ => mul_comm _ _)

end Cert.Router

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Payload.lean ====
/-
  What the kernel body stores, entry by entry.

  At a grid point the body holds three blocks: `v0 : [64, 4096]` (all prototypes), `v1 : [512, 4096]` (512 tokens) and
  `v3 : [1, 64]` (the gates as one row). It contracts the prototypes against the tokens over the feature axis into a
  `[64, 512]` table, multiplies by the splat of `2⁻⁶`, subtracts the gate row turned into a column and repeated along
  the tokens, and clips at the splat of zero. Read at the entry `(n, q)` this is

      max ((Σ_k v0[n,k] · v1[q,k]) · 2⁻⁶ - v3[0,n]) 0,

  the score of prototype `n` for the block's token `q`.
-/
import proofs.«170007_g28312424415705_cont_9to1_2284_20_alg».proof.Proof.Gen.KernelIdeal.Skeleton
import proofs.«170007_g28312424415705_cont_9to1_2284_20_alg».proof.Proof.Spec
import proofs.«170007_g28312424415705_cont_9to1_2284_20_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The contraction -/

/-- The left operand of the contraction is read at the output's row … -/
theorem lhs_row (i : S64x512.Idx) (q : dot_S64x4096_S512x4096_S64x512_1_1_0_0_n_n.contr.Idx) :
    (dot_S64x4096_S512x4096_S64x512_1_1_0_0_n_n.lhsIdx i q 0).val = (i 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl
/-- … and at the contracted coordinate; -/
theorem lhs_col (i : S64x512.Idx) (q : dot_S64x4096_S512x4096_S64x512_1_1_0_0_n_n.contr.Idx) :
    (dot_S64x4096_S512x4096_S64x512_1_1_0_0_n_n.lhsIdx i q 1).val = (q ⟨0, by decide⟩).val :=
  dot_S64x4096_S512x4096_S64x512_1_1_0_0_n_n.lhsIdx_val_of_single rfl i q
/-- the right operand at the output's column … -/
theorem rhs_row (i : S64x512.Idx) (q : dot_S64x4096_S512x4096_S64x512_1_1_0_0_n_n.contr.Idx) :
    (dot_S64x4096_S512x4096_S64x512_1_1_0_0_n_n.rhsIdx i q 0).val = (i 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl
/-- … and at the contracted coordinate. -/
theorem rhs_col (i : S64x512.Idx) (q : dot_S64x4096_S512x4096_S64x512_1_1_0_0_n_n.contr.Idx) :
    (dot_S64x4096_S512x4096_S64x512_1_1_0_0_n_n.rhsIdx i q 1).val = (q ⟨0, by decide⟩).val :=
  dot_S64x4096_S512x4096_S64x512_1_1_0_0_n_n.rhsIdx_val_of_single rfl i q

/-- The contraction into the zero table, at `(n, q)`: the inner product of row `n` of the prototypes with row `q` of
    the tokens. -/
theorem contraction_apply (v0 : Vec Ideal S64x4096 .f32) (v1 : Vec Ideal S512x4096 .f32) (n : Fin 64) (q : Fin 512) :
    matmul (F := Ideal) (φ₁ := .f32) (φ₂ := .f32) dot_S64x4096_S512x4096_S64x512_1_1_0_0_n_n none v0 v1 (constant (F := Ideal) S64x512 .f32 0x00000000#32) (ix2 n q)
      = ∑ k : Fin 4096, v0 (ix2 n k) * v1 (ix2 q k) := by
  simp only [matmul]
  rw [Ideal.matmul_constant_zero_apply,
    ← Equiv.sum_comp (contrEquiv1 dot_S64x4096_S512x4096_S64x512_1_1_0_0_n_n 4096 rfl rfl).symm]
  refine Finset.sum_congr rfl fun k _ => ?_
  have hk := contrEquiv1_symm_val dot_S64x4096_S512x4096_S64x512_1_1_0_0_n_n 4096 rfl rfl k
  have el : dot_S64x4096_S512x4096_S64x512_1_1_0_0_n_n.lhsIdx (ix2 n q)
      ((contrEquiv1 dot_S64x4096_S512x4096_S64x512_1_1_0_0_n_n 4096 rfl rfl).symm k) = ix2 n k :=
    funext fun a => Fin.ext (by
      match a with
      | ⟨0, _⟩ => exact lhs_row _ _
      | ⟨1, _⟩ => exact (lhs_col _ _).trans hk)
  have er : dot_S64x4096_S512x4096_S64x512_1_1_0_0_n_n.rhsIdx (ix2 n q)
      ((contrEquiv1 dot_S64x4096_S512x4096_S64x512_1_1_0_0_n_n 4096 rfl rfl).symm k) = ix2 q k :=
    funext fun a => Fin.ext (by
      match a with
      | ⟨0, _⟩ => exact rhs_row _ _
      | ⟨1, _⟩ => exact (rhs_col _ _).trans hk)
  rw [el, er]

/-! ## The gate column -/

/-- The gate row, cast to its own shape, turned into a column and repeated along the tokens, at `(n, q)`: gate `n`. -/
theorem gateColumn_apply (v3 : Vec Ideal S1x64 .f32) (n : Fin 64) (q : Fin 512) :
    broadcastTo S64x512 (transpose S64x1 [1, 0] (shapeCast S1x64 v3 shapeCasts_S1x64_S1x64) transposes_S1x64_p1_0_S64x1)
        broadcasts_S64x1_S64x512 (ix2 n q)
      = v3 (ix2 (0 : Fin 1) n) := by
  rw [Cert.LibColumnBroadcast.broadcastTo_a1_ab_apply, transpose_ix2_apply, shapeCast_self]

/-! ## The stored table -/

/-- The body's stored value at `(n, q)` is the score of prototype `n` for token `q` of the block. -/
theorem stored_apply (v0 : Vec Ideal S64x4096 .f32) (v1 : Vec Ideal S512x4096 .f32) (v3 : Vec Ideal S1x64 .f32)
    (n : Fin 64) (q : Fin 512) :
    k0_pay1 (F := Ideal) v0 v1 v3 (ix2 n q)
      = max ((∑ k : Fin 4096, v0 (ix2 n k) * v1 (ix2 q k)) * Ideal.ofBits .f32 0x3C800000#32 - v3 (ix2 (0 : Fin 1) n))
          (Ideal.ofBits .f32 0x00000000#32) := by
  unfold k0_pay1
  rw [maximumf_apply, subf_apply, mulf_apply, contraction_apply, gateColumn_apply]
  rfl

end Cert.KernelIdeal.Body

end
-- ==== Proof.KernelValue.lean ====
/-
  What the kernel's program computes, as a function of its three arguments.

  The region's output array is the prototype-major table `[64, 8192]`. The grid has 16 points; point `t` reads the
  token rows `512·t … 512·t + 511` of `x`, all of `p`, and the gate row (the gates cast to `[1, 64]` by the host
  before the region), and writes back the columns `512·t … 512·t + 511` of the table. By the body's arithmetic
  (the stored table at `(n, q)` is the score of prototype `n` for the block's token `q`) the block written back at
  point `t` is the block of ONE whole table, `scoresT`, of the argument arrays: entry `(n, 512·t + q)` is the score of
  prototype `n` for token `512·t + q`. The 16 column blocks tile the table (column `r` lies in block `r / 512`), so
  after the region the array holds `scoresT` everywhere; the host's transpose after the region then leaves the
  token-major table, whose entry `(t, n)` is `scoresT` at `(n, t)`.
-/
import proofs.«170007_g28312424415705_cont_9to1_2284_20_alg».proof.Proof.Gen.KernelIdeal.Frame
import proofs.«170007_g28312424415705_cont_9to1_2284_20_alg».proof.Proof.Payload
import proofs.«170007_g28312424415705_cont_9to1_2284_20_alg».proof.Proof.Spec
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Scores

open Cert.KernelIdeal Cert.KernelIdeal.Gen Cert.Router

variable (m : (ℓ : Loc nD τ sig) → Buf (Elt Ideal) ℓ) (ρ : Dev nD → PrngReg)

theorem hz : (![0, 0] : Fin 2 → Nat) = fun _ => 0 := funext fun a => by fin_cases a <;> rfl

/-! ## The three argument arrays -/

/-- The tokens `x`, as launched on core `c`. -/
abbrev tokens (c : Dev nD) : (⟨2, ![8192, 4096]⟩ : Shape).Idx → EReal := m ((c : Thread nD τ).loc main_arg0)
/-- The prototypes `p`. -/
abbrev protos (c : Dev nD) : (⟨2, ![64, 4096]⟩ : Shape).Idx → EReal := m ((c : Thread nD τ).loc main_arg1)
/-- The gates `g`. -/
abbrev gates (c : Dev nD) : (⟨1, ![64]⟩ : Shape).Idx → EReal := m ((c : Thread nD τ).loc main_arg2)

/-! ## The arrays as the region finds them -/

/-- The gate row the region stages is the gates cast to one row. -/
theorem gateRow (c : Dev nD) :
    (V m c main_v0 : S1x64.Idx → EReal) = shapeCast S1x64 (gates m c) shapeCasts_S64_S1x64 := by
  show StableHlo.after hostOps0 (fun b => m (c, b)) (Proc.devRef .tc main_v0) = _
  after_results
  rfl

/-! ## Which block each window holds at a point -/

/-- Decided over the 16 points: the token window is at row block `t`, the output window at column block `t`, the
    prototypes and the gate row are whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The token block at point `t`, at `(q, k)`: token `512·t + q`, feature `k`. -/
theorem tokenBlock_apply (c : Dev nD) (t : Fin cfg0.N) (q : Fin 512) (k : Fin 4096) (r : Fin 8192)
    (hr : r.val = t.val * 512 + q.val) :
    (iblk m c 0 t : Vec Ideal S512x4096 .f32) (ix2 q k) = tokens m c (ix2 r k) := by
  obtain ⟨e0, e1, -⟩ := block_indices t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * q.val = r.val; omega
  | ⟨1, _⟩ => show win0_0.index t (1 : Fin 2) * 4096 + 1 * k.val = k.val; omega

/-- The prototype block at any point, at `(n, k)`: the prototypes there. -/
theorem protoBlock_apply (c : Dev nD) (t : Fin cfg0.N) (n : Fin 64) (k : Fin 4096) :
    (iblk m c 1 t : Vec Ideal S64x4096 .f32) (ix2 n k) = protos m c (ix2 n k) := by
  obtain ⟨-, -, e2, e3, -⟩ := block_indices t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 64 + 1 * n.val = n.val; omega
  | ⟨1, _⟩ => show win0_1.index t (1 : Fin 2) * 4096 + 1 * k.val = k.val; omega

/-- The gate row's block at any point, at `(0, n)`: gate `n`. -/
theorem gateBlock_apply (c : Dev nD) (t : Fin cfg0.N) (n : Fin 64) :
    (iblk m c 2 t : Vec Ideal S1x64 .f32) (ix2 (0 : Fin 1) n) = gates m c (ix1 n) := by
  obtain ⟨-, -, -, -, e4, e5, -⟩ := block_indices t
  unfold iblk
  rw [View.read_apply]
  show V m c main_v0 _ = _
  rw [gateRow]
  refine Eq.trans (congrArg (shapeCast S1x64 (gates m c) shapeCasts_S64_S1x64) (funext fun a => Fin.ext ?_))
    (shapeCast_a_1a_apply (gates m c) shapeCasts_S64_S1x64 (0 : Fin 1) n)
  match a with
  | ⟨0, _⟩ => show win0_2.index t (0 : Fin 2) * 1 + 1 * 0 = 0; omega
  | ⟨1, _⟩ => show win0_2.index t (1 : Fin 2) * 64 + 1 * n.val = n.val; omega

/-! ## What a point writes back -/

/-- The body's stored table over the point's three blocks, at `(n, q)`, is the score of prototype `n` for token
    `512·t + q`. -/
theorem stored_is_score (c : Dev nD) (t : Fin cfg0.N) (n : Fin 64) (q : Fin 512) (r : Fin 8192)
    (hr : r.val = t.val * 512 + q.val) :
    k0_pay1 (F := Ideal) (iblk m c 1 t) (iblk m c 0 t) (iblk m c 2 t) (ix2 n q)
      = score (tokens m c) (protos m c) (gates m c) n r := by
  refine (Cert.KernelIdeal.Body.stored_apply (iblk m c 1 t) (iblk m c 0 t) (iblk m c 2 t) n q).trans ?_
  unfold score rowDot
  rw [gateBlock_apply m c t n]
  refine congrArg (fun s : EReal => max (s * Ideal.ofBits .f32 0x3C800000#32 - gates m c (ix1 n)) (Ideal.ofBits .f32 0x00000000#32)) ?_
  exact Finset.sum_congr rfl fun k _ => by rw [protoBlock_apply m c t n k, tokenBlock_apply m c t q k r hr]

/-- The same at every entry of the stored table, with the table's index under the output block: entry `j` of the
    block at point `t` is the whole table's entry `(j 0, 512·t + j 1)`. -/
theorem stored_block (c : Dev nD) (t : Fin cfg0.N) (j : S64x512.Idx) :
    k0_pay1 (F := Ideal) (iblk m c 1 t) (iblk m c 0 t) (iblk m c 2 t) j
      = scoresT (tokens m c) (protos m c) (gates m c) (((cfg0.win 3).blk t).view.emb j) := by
  obtain ⟨-, -, -, -, -, -, e6, e7⟩ := block_indices t
  have hN : cfg0.N = 16 := N_0
  have ht : t.val < 16 := by have := t.isLt; omega
  obtain ⟨n, q, rfl⟩ : ∃ (n : Fin 64) (q : Fin 512), j = ix2 n q := ⟨j 0, j 1, eq_ix2 j⟩
  have hq : q.val < 512 := q.isLt
  rw [stored_is_score m c t n q ⟨t.val * 512 + q.val, by omega⟩ rfl]
  refine (scoresT_apply _ _ _ _ _).symm.trans (congrArg (scoresT (tokens m c) (protos m c) (gates m c)) (funext fun a => Fin.ext ?_))
  match a with
  | ⟨0, _⟩ => show n.val = win0_3.index t (0 : Fin 2) * 64 + 1 * n.val; omega
  | ⟨1, _⟩ => show t.val * 512 + q.val = win0_3.index t (1 : Fin 2) * 512 + 1 * q.val; omega

/-- WHAT POINT `t` WRITES BACK is block `t` of the whole prototype-major table of scores. -/
theorem flushed_scores (c : Dev nD) (t : Fin cfg0.N) :
    (dats m 0 c).flushed 3 t
      = ((cfg0.win 3).blk t).view.read (Elt Ideal) (scoresT (tokens m c) (protos m c) (gates m c)) := by
  show (cfg0.win 3).cut (grid0.coords t) ((dats m 0 c).after 3 t) = _
  rw [after0_3]
  unfold out0_3
  rw [View.canon_unit_zero hz]
  simp only [View.ld_unit_zero (S := S64x4096) hz, View.ld_unit_zero (S := S512x4096) hz, View.ld_unit_zero (S := S1x64) hz]
  funext j
  exact stored_block m c t j

/-! ## The blocks tile the table -/

/-- An index of the table is in point `t`'s block iff each coordinate is in the block's range on its axis. -/
theorem mem_block (t : Fin cfg0.N) (i : S64x8192.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v1).slice (win0_3.rect t)).set ↔ _
  rw [View.set_slice_whole, Rect.mem_set_unit]
  exact Iff.rfl

/-- Every entry `(n, r)` of the table is in the block written back at point `r / 512`. -/
theorem covered (i : S64x8192.Idx) :
    ∃ t : Fin cfg0.N, (cfg0.win 3).flush t = true ∧ i ∈ ((cfg0.win 3).blk t).view.set := by
  have h0 : (i 0).val < 64 := (i 0).isLt
  have h1 : (i 1).val < 8192 := (i 1).isLt
  have hN : cfg0.N = 16 := N_0
  obtain ⟨t, ht⟩ : ∃ t : Fin cfg0.N, t.val = (i 1).val / 512 := ⟨⟨(i 1).val / 512, by rw [hN]; omega⟩, rfl⟩
  obtain ⟨-, -, -, -, -, -, e6, e7⟩ := block_indices t
  refine ⟨t, flush0_3 t, ?_⟩
  rw [mem_block]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- THE OUTPUT ARRAY after the region is the whole prototype-major table of scores. -/
theorem final_scores (c : Dev nD) :
    (dats m 0 c).arrAt 3 cfg0.N = scoresT (tokens m c) (protos m c) (gates m c) :=
  (dats m 0 c).arrAt_eq_of_cover 3 (scoresT (tokens m c) (protos m c) (gates m c)) (fun t _ => flushed_scores m c t) covered

/-! ## The transpose after the region, and the run -/

/-- The program's result: the host transposes the region's array. -/
theorem result_eq (c : Dev nD) :
    (Pipeline.afterTail₀ cfgs (dats m) 0 (V0 m) [hostOps1] c main_v2 : S8192x64.Idx → EReal)
      = transpose S8192x64 [1, 0] (scoresT (tokens m c) (protos m c) (gates m c)) transposes_S64x8192_S8192x64_1_0 := by
  unfold Pipeline.afterTail₀
  show StableHlo.after hostOps1 _ (Proc.devRef .tc main_v2) = _
  after_results
  exact congrArg (fun A : S64x8192.Idx → EReal => transpose S8192x64 [1, 0] A transposes_S64x8192_S8192x64_1_0)
    ((Pipeline.withArrays_arr spec0 launch0.win.arr_inj c _ _ 3).trans (final_scores m c))

/-- The transposed table at `(t, n)` is the score of prototype `n` for token `t`: the token-major table. -/
theorem transposed_eq (x : (⟨2, ![8192, 4096]⟩ : Shape).Idx → EReal) (p : (⟨2, ![64, 4096]⟩ : Shape).Idx → EReal)
    (g : (⟨1, ![64]⟩ : Shape).Idx → EReal) :
    transpose S8192x64 [1, 0] (scoresT x p g) transposes_S64x8192_S8192x64_1_0 = scores x p g := by
  funext i
  obtain ⟨t, n, rfl⟩ : ∃ (t : Fin 8192) (n : Fin 64), i = ix2 t n := ⟨i 0, i 1, eq_ix2 i⟩
  rw [transpose_ix2_apply]
  rfl

/-- THE RUN, READ: every weakly fair execution of the program terminates with the result at the token-major table of
    scores of the launch arguments, the arguments unchanged. -/
theorem run : θ_run defs (onTc (τ := τ) (main (F := Ideal))) ⟨m, fun _ => 0, ρ⟩ fun r => ∀ c : Dev nD,
      r.2.mem ((c : Thread nD τ).loc main_v2) = scores (tokens m c) (protos m c) (gates m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(((h c).2 main_v2 (Pipeline.mem_restRefs_of main_v2 (by decide) (by decide))).trans (result_eq m c)).trans
        (transposed_eq (tokens m c) (protos m c) (gates m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Scores

end
-- ==== Proof.RefValue.lean ====
/-
  What the reference computes, as the same function of its three arguments.

  The reference contracts the tokens against the prototypes over the feature axis (entry `(t, n)`: the sum over `k` of
  `x[t,k] · p[n,k]`), divides by the splat of `64`, subtracts the gates repeated along the tokens and takes the
  maximum with the splat of zero. At `(t, n)` that is `max ((Σ_k x[t,k] · p[n,k]) / 64 - g[n]) 0`, and by the one law of
  the specification (a product with `2⁻⁶` is a quotient by `64`, the factors of each term commuted) it is the score of
  prototype `n` for token `t`: the reference's result is the token-major table of scores.
-/
import proofs.«170007_g28312424415705_cont_9to1_2284_20_alg».proof.Proof.Gen.ReferenceIdeal.Read
import proofs.«170007_g28312424415705_cont_9to1_2284_20_alg».proof.Proof.Spec

noncomputable section

namespace Cert.ReferenceIdeal.Scores

open Cert.ReferenceIdeal Cert.ReferenceIdeal.Gen Cert.ReferenceIdeal.Read Cert.Router
open Idealize.ShloMosaic Idealize.ShloMosaic.ValueIdx

/-- The contraction reads the token's row … -/
theorem tokenIdx (t : Fin 8192) (n : Fin 64) (k : Fin 4096) : lidx_main_v0 (ix2 t n) k = ix2 t k :=
  funext fun a => Fin.ext (by match a with | ⟨0, _⟩ => rfl | ⟨1, _⟩ => rfl)
/-- … and the prototype's row, -/
theorem protoIdx (t : Fin 8192) (n : Fin 64) (k : Fin 4096) : ridx_main_v0 (ix2 t n) k = ix2 n k :=
  funext fun a => Fin.ext (by match a with | ⟨0, _⟩ => rfl | ⟨1, _⟩ => rfl)
/-- and the two broadcasts of the gates read gate `n`. -/
theorem gateIdx (t : Fin 8192) (n : Fin 64) : idx_main_v3 (idx_main_v4 (ix2 t n)) = ix1 n :=
  funext fun a => Fin.ext (by match a with | ⟨0, _⟩ => rfl)

/-- The reference's result is the token-major table of scores of its arguments. -/
theorem reference_is_scores (x0 : (⟨S8192x4096, .f32⟩ : BufTy).Contents (Elt Ideal)) (x1 : (⟨S64x4096, .f32⟩ : BufTy).Contents (Elt Ideal))
    (x2 : (⟨S64, .f32⟩ : BufTy).Contents (Elt Ideal)) :
    val_main_v6 (F := Ideal) x0 x1 x2 = scores x0 x1 x2 := by
  funext i
  obtain ⟨t, n, rfl⟩ : ∃ (t : Fin 8192) (n : Fin 64), i = ix2 t n := ⟨i 0, i 1, eq_ix2 i⟩
  rw [val_main_v6_apply, val_main_v5_apply, val_main_v2_apply, val_main_v0_apply, val_main_v1_apply, val_main_cst_apply,
    val_main_v4_apply, val_main_v3_apply, val_main_call0_v0_apply, val_main_call0_cst_apply]
  simp only [tokenIdx, protoIdx, gateIdx, Ideal.maximumf_def, Ideal.subf_def, Ideal.hostDivf_def, Ideal.ofBits_def]
  rw [scores_apply]
  unfold score
  rw [scaled_eq_div]

end Cert.ReferenceIdeal.Scores

end
-- ==== Proof.lean ====
/-
  A gated router, `relu (x · pᵀ / √4096 - g)`, computed two ways.

  For tokens `x : [8192, 4096]`, prototypes `p : [64, 4096]` and gates `g : [64]` both programs produce the table
  `[8192, 64]` whose entry `(t, n)` is the score of prototype `n` for token `t`,

      max ((Σ_k p[n,k] · x[t,k]) · 2⁻⁶ - g[n]) 0        (Proof/Spec.lean, `Cert.Router.scores`).

  The kernel computes it prototype-major: at each of 16 grid points it contracts all prototypes against a block of 512
  tokens, scales by the float `2⁻⁶` (which is `1/√4096` exactly), subtracts the gates as a column, clips at zero and
  writes back 512 columns of a `[64, 8192]` table; the host then transposes the table. The column blocks tile the
  table, so the region leaves the whole prototype-major table and the transpose the token-major one
  (Proof/Payload.lean: the stored table entry by entry; Proof/KernelValue.lean: the blocks, the cover, the transpose,
  the run).

  The reference contracts tokens against prototypes (`Σ_k x[t,k] · p[n,k]`), DIVIDES by the float `64`, subtracts the
  gates repeated along the tokens and takes the maximum with zero. On the extended reals a quotient by `64` is the
  product with `1/64` at every value, the infinities included, and commuting the factors of each term of a sum changes
  nothing; so the reference's result is the same table (Proof/RefValue.lean), for ALL inputs: the precondition that the
  inputs are finite is never opened.

  The idealization rewrote nothing in the kernel (there is no conjunct to preserve), and each program's frame — it
  terminates, faults nowhere and leaves its arguments as they were — is the generated one.
-/
import proofs.«170007_g28312424415705_cont_9to1_2284_20_alg».proof.Defs
import proofs.«170007_g28312424415705_cont_9to1_2284_20_alg».proof.Proof.Gen.Kernel
import proofs.«170007_g28312424415705_cont_9to1_2284_20_alg».proof.Proof.Gen.Kernel.Skeleton
import proofs.«170007_g28312424415705_cont_9to1_2284_20_alg».proof.Proof.Gen.Kernel.Launch
import proofs.«170007_g28312424415705_cont_9to1_2284_20_alg».proof.Proof.Gen.Kernel.Points
import proofs.«170007_g28312424415705_cont_9to1_2284_20_alg».proof.Proof.Gen.Kernel.Frame
import proofs.«170007_g28312424415705_cont_9to1_2284_20_alg».proof.Proof.Gen.KernelIdeal
import proofs.«170007_g28312424415705_cont_9to1_2284_20_alg».proof.Proof.Gen.KernelIdeal.Skeleton
import proofs.«170007_g28312424415705_cont_9to1_2284_20_alg».proof.Proof.Gen.KernelIdeal.Launch
import proofs.«170007_g28312424415705_cont_9to1_2284_20_alg».proof.Proof.Gen.KernelIdeal.Points
import proofs.«170007_g28312424415705_cont_9to1_2284_20_alg».proof.Proof.Gen.KernelIdeal.Frame
import proofs.«170007_g28312424415705_cont_9to1_2284_20_alg».proof.Proof.Gen.ReferenceIdeal
import proofs.«170007_g28312424415705_cont_9to1_2284_20_alg».proof.Proof.Gen.Pre_finite_inputs
import proofs.«170007_g28312424415705_cont_9to1_2284_20_alg».proof.Proof.Gen.ReferenceIdeal.Run
import proofs.«170007_g28312424415705_cont_9to1_2284_20_alg».proof.Proof.Gen.ReferenceIdeal.Read
import proofs.«170007_g28312424415705_cont_9to1_2284_20_alg».proof.Proof.KernelValue
import proofs.«170007_g28312424415705_cont_9to1_2284_20_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories that agree on the three arguments both programs end with the token-major table of scores of those
    arguments: the kernel by its blocks and the transpose, the reference by the quotient law. -/
theorem algebraic : Cert.algebraic_KernelIdeal_ReferenceIdeal := by
  intro m ρ m' ρ' _ hagree
  refine ⟨fun c => Cert.Router.scores (Cert.KernelIdeal.Scores.tokens m c) (Cert.KernelIdeal.Scores.protos m c)
      (Cert.KernelIdeal.Scores.gates m c), Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Scores.reference_is_scores,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
